-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2x1024 : Shape := ⟨3, ![32768, 2, 1024]⟩
abbrev S1024x1 : Shape := ⟨2, ![1024, 1]⟩
abbrev S_ : Shape := ⟨0, ![]⟩

class Facts : Prop where
  bcast_S_S32768x2x1024 : S_.BroadcastsInDim S32768x2x1024 (![] : Fin 0 → Fin S32768x2x1024.rank)
  reducesTo_S32768x2x1024_S_d0_1_2 : S32768x2x1024.ReducesTo [0, 1, 2] S_
  h_S_ : 0 < S_.numel
  bcast_S_S1024x1 : S_.BroadcastsInDim S1024x1 (![] : Fin 0 → Fin S1024x1.rank)
  reducesTo_S1024x1_S_d0_1 : S1024x1.ReducesTo [0, 1] S_

variable [Facts]

def fn {F : FTy → Type} [FloatOps F] (main_arg0 : FVec F S32768x2x1024 .f32) (main_arg1 : FVec F S1024x1 .f32) : IVec S_ 1 :=
  let main_v0 : FVec F S32768x2x1024 .f32 := Host.absf main_arg0
  let main_cst : FVec F S_ .f32 := constant S_ .f32 0x7F800000#32
  let main_v1 : FVec F S32768x2x1024 .f32 := broadcastInDim S32768x2x1024 ![] bcast_S_S32768x2x1024 main_cst
  let main_v2 : IVec S32768x2x1024 1 := cmpf .olt main_v0 main_v1
  let main_c : IVec S_ 1 := constantI S_ 1 1#1
  let main_v3 : IVec S_ 1 := (fun x v => Host.reduce IntOp.andi x v reducesTo_S32768x2x1024_S_d0_1_2 h_S_) main_v2 main_c
  let main_v4 : FVec F S1024x1 .f32 := Host.absf main_arg1
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  main_v8
-- ==== Kernel.lean ====
abbrev S32768x2x1024 : Shape := ⟨3, ![32768, 2, 1024]⟩
abbrev S1024x1 : Shape := ⟨2, ![1024, 1]⟩
abbrev S32768x2048 : Shape := ⟨2, ![32768, 2048]⟩
abbrev S1024 : Shape := ⟨1, ![1024]⟩
abbrev S_ : Shape := ⟨0, ![]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 5
  | .smem => 0
  | _ => 0

abbrev bufTy : (tb : Table) → Fin (tcTables nBuf tb) → BufTy
  | .hbm, ⟨0, _⟩ => ⟨S32768x2x1024, .f32⟩
  | .hbm, ⟨1, _⟩ => ⟨S1024x1, .f32⟩
  | .hbm, ⟨2, _⟩ => ⟨S32768x2048, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S32768x2048, .f32⟩
  | .hbm, ⟨9, _⟩ => ⟨S32768x2x1024, .f32⟩
  | .local _ .vmem, ⟨0, _⟩ => ⟨S512x2048, .f32⟩
  | .local _ .vmem, ⟨1, _⟩ => ⟨S512x2048, .f32⟩
  | .local _ .vmem, ⟨2, _⟩ => ⟨S1x1024, .f32⟩
  | .local _ .vmem, ⟨3, _⟩ => ⟨S512x2048, .f32⟩
  | .local _ .vmem, ⟨4, _⟩ => ⟨S512x2048, .f32⟩
  | _, _ => ⟨S32768x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32768x2x1024_S32768x2048 : S32768x2x1024.ShapeCasts S32768x2048
  shapeCasts_S1024x1_S1024 : S1024x1.ShapeCasts S1024
  bcast_S_S1024 : S_.BroadcastsInDim S1024 (![] : Fin 0 → Fin S1024.rank)
  shapeCasts_S1024_S1x1024 : S1024.ShapeCasts S1x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S512x2048_o0_0_S512x1024 : S512x2048.Slices ![0, 0] S512x1024
  slices_S512x2048_o0_1024_S512x1024 : S512x2048.Slices ![0, 1024] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  inb_S512x2048_S512x1024_0_0 : ∀ a, (![0, 0] : Fin 2 → Nat) a + S512x1024.size a ≤ S512x2048.size a
  h_S512x1024 : 0 < S512x1024.numel
  inb_S512x2048_S512x1024_0_1024 : ∀ a, (![0, 1024] : Fin 2 → Nat) a + S512x1024.size a ≤ S512x2048.size a
  shapeCasts_S32768x2048_S32768x2x1024 : S32768x2048.ShapeCasts S32768x2x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S32768x2048.size a
  hwx0_2 : ∀ i : grid0.Coords, EltTy.bits .f32 = 32 ∨ (Rect.block (s := S32768x2048) S512x2048.size (cc0_transform_2 i) (hinb0_2 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x2x1024 : Shape := ⟨3, ![32768, 2, 1024]⟩
abbrev S1024x1 : Shape := ⟨2, ![1024, 1]⟩
abbrev S_ : Shape := ⟨0, ![]⟩
abbrev S1024 : Shape := ⟨1, ![1024]⟩
abbrev S1x1024 : Shape := ⟨2, ![1, 1024]⟩
abbrev S2x1024 : Shape := ⟨2, ![2, 1024]⟩
abbrev S1x2x1024 : Shape := ⟨3, ![1, 2, 1024]⟩
abbrev S32768x2x1 : Shape := ⟨3, ![32768, 2, 1]⟩
abbrev S32768x2x2 : Shape := ⟨3, ![32768, 2, 2]⟩
abbrev S32768x2 : Shape := ⟨2, ![32768, 2]⟩

abbrev nBuf : Space → Nat
  | .hbm => 34
  | .vmem => 0
  | .smem => 0
  | _ => 0

abbrev bufTy : (tb : Table) → Fin (tcTables nBuf tb) → BufTy
  | .hbm, ⟨0, _⟩ => ⟨S32768x2x1024, .f32⟩
  | .hbm, ⟨1, _⟩ => ⟨S1024x1, .f32⟩
  | .hbm, ⟨2, _⟩ => ⟨S_, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S1x2x1024, .f32⟩
  | .hbm, ⟨12, _⟩ => ⟨S32768x2x1024, .f32⟩
  | .hbm, ⟨13, _⟩ => ⟨S32768x2x1024, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S32768x2x1, .f32⟩
  | .hbm, ⟨18, _⟩ => ⟨S32768x2x2, .f32⟩
  | .hbm, ⟨19, _⟩ => ⟨S_, .f32⟩
  | .hbm, ⟨20, _⟩ => ⟨S32768x2, .f32⟩
  | .hbm, ⟨21, _⟩ => ⟨S_, .f32⟩
  | .hbm, ⟨22, _⟩ => ⟨S32768x2, .f32⟩
  | .hbm, ⟨23, _⟩ => ⟨S32768x2, .f32⟩
  | .hbm, ⟨24, _⟩ => ⟨S32768x2x1, .f32⟩
  | .hbm, ⟨25, _⟩ => ⟨S32768x2x2, .f32⟩
  | .hbm, ⟨26, _⟩ => ⟨S32768x2x2, .f32⟩
  | .hbm, ⟨27, _⟩ => ⟨S32768x2x2, .f32⟩
  | .hbm, ⟨28, _⟩ => ⟨S_, .f32⟩
  | .hbm, ⟨29, _⟩ => ⟨S32768x2, .f32⟩
  | .hbm, ⟨30, _⟩ => ⟨S32768x2x1, .f32⟩
  | .hbm, ⟨31, _⟩ => ⟨S32768x2x2, .f32⟩
  | .hbm, ⟨32, _⟩ => ⟨S32768x2x2, .f32⟩
  | .hbm, ⟨33, _⟩ => ⟨S32768x2x1024, .f32⟩
  | _, _ => ⟨S32768x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1x1024_1 : S1024.BroadcastsInDim S1x1024 (![1] : Fin 1 → Fin S1x1024.rank)
  concatenates_S1x1024_S1x1024_S2x1024_d0 : Shape.Concatenates [S1x1024, S1x1024] S2x1024 0
  bcast_S_S2x1024 : S_.BroadcastsInDim S2x1024 (![] : Fin 0 → Fin S2x1024.rank)
  bcast_S2x1024_S1x2x1024_1_2 : S2x1024.BroadcastsInDim S1x2x1024 (![1, 2] : Fin 2 → Fin S1x2x1024.rank)
  bcast_S1x2x1024_S32768x2x1024_0_1_2 : S1x2x1024.BroadcastsInDim S32768x2x1024 (![0, 1, 2] : Fin 3 → Fin S32768x2x1024.rank)
  bcast_S_S1024x1 : S_.BroadcastsInDim S1024x1 (![] : Fin 0 → Fin S1024x1.rank)
  reducesTo_S32768x2x2_S32768x2_d2 : S32768x2x2.ReducesTo [2] S32768x2
  h_S_ : 0 < S_.numel
  bcast_S_S32768x2 : S_.BroadcastsInDim S32768x2 (![] : Fin 0 → Fin S32768x2.rank)
  bcast_S32768x2_S32768x2x1_0_1 : S32768x2.BroadcastsInDim S32768x2x1 (![0, 1] : Fin 2 → Fin S32768x2x1.rank)
  bcast_S32768x2x1_S32768x2x2_0_1_2 : S32768x2x1.BroadcastsInDim S32768x2x2 (![0, 1, 2] : Fin 3 → Fin S32768x2x2.rank)
  dot_S32768x2x1024_S1024x1_S32768x2x1_2_0_01_1_n_n_wf : DotDims.WF S32768x2x1024 S1024x1 S32768x2x1 [2] [0] [0, 1] [1] [] []
  dot_S32768x2x1_S32768x2x1_S32768x2x2_2_2_1_1_0_0_wf : DotDims.WF S32768x2x1 S32768x2x1 S32768x2x2 [2] [2] [1] [1] [0] [0]
  dot_S32768x2x2_S32768x2x1024_S32768x2x1024_2_1_1_2_0_0_wf : DotDims.WF S32768x2x2 S32768x2x1024 S32768x2x1024 [2] [1] [1] [2] [0] [0]

variable [Facts₀]

def dot_S32768x2x1024_S1024x1_S32768x2x1_2_0_01_1_n_n : DotDims S32768x2x1024 S1024x1 S32768x2x1 where
  lhsContracting := [2]
  rhsContracting := [0]
  lhsNonContracting := [0, 1]
  rhsNonContracting := [1]
  lhsBatch := []
  rhsBatch := []
  wf := dot_S32768x2x1024_S1024x1_S32768x2x1_2_0_01_1_n_n_wf
def dot_S32768x2x1_S32768x2x1_S32768x2x2_2_2_1_1_0_0 : DotDims S32768x2x1 S32768x2x1 S32768x2x2 where
  lhsContracting := [2]
  rhsContracting := [2]
  lhsNonContracting := [1]
  rhsNonContracting := [1]
  lhsBatch := [0]
  rhsBatch := [0]
  wf := dot_S32768x2x1_S32768x2x1_S32768x2x2_2_2_1_1_0_0_wf
def dot_S32768x2x2_S32768x2x1024_S32768x2x1024_2_1_1_2_0_0 : DotDims S32768x2x2 S32768x2x1024 S32768x2x1024 where
  lhsContracting := [2]
  rhsContracting := [1]
  lhsNonContracting := [1]
  rhsNonContracting := [2]
  lhsBatch := [0]
  rhsBatch := [0]
  wf := dot_S32768x2x2_S32768x2x1024_S32768x2x1024_2_1_1_2_0_0_wf

class Facts : Prop extends Facts₀ where

variable [Facts]
-- ==== Proof.Spec.lean ====
/-
  The mathematics both programs compute, for ONE batch row, as a function of that row's two position vectors
  `r0 r1 : Fin 1024 → EReal` and of the (already scaled) query weights `w : Fin 1024 → EReal`:
  shift the positions by ±c (c = 2⁻⁵), take the two scores q₀ = Σ (r0 + c)·w and q₁ = Σ (r1 − c)·w, and mix the two
  shifted positions with the attention weights of a 2-element softmax over the logits q_l·q₀, q_l·q₁.
  A softmax over two logits u, v is the logistic function of their difference:
    e^{u−M} / (e^{u−M} + e^{v−M}) = 1 / (1 + e^{−(u−v)})   for every real M,
  and the second weight is one minus the first. This holds on the reals; on the extended reals it needs the logits finite.
-/
import Idealize.ShloMosaic.PureOps.Ideal
import Idealize.ShloMosaic.PureOps.Ideal.Laws
import Idealize.ShloMosaic.Lib.ValueIdx

noncomputable section

namespace Cert.Attn

open Idealize.ShloMosaic

/-- The positional shift, 2⁻⁵ = 1/√1024, as both programs spell it. -/
def shift : EReal := Ideal.ofBits .f32 0x3D000000#32
/-- The literal one of the kernel's `1 − p`. -/
def unit : EReal := Ideal.ofBits .f32 0x3F800000#32

theorem shift_eq : shift = ((1 / 32 : ℝ) : EReal) := by
  unfold shift; simp [Ideal.ofBits, Ideal.ieee, -EReal.coe_mul]; norm_num
theorem unit_eq : unit = 1 := by
  unfold unit; simp [Ideal.ofBits, Ideal.ieee, -EReal.coe_mul]; norm_num
theorem ofBits_one : Ideal.ofBits .f32 0x3F800000#32 = 1 := unit_eq
theorem ofBits_neg_inf : Ideal.ofBits .f32 0xFF800000#32 = ⊥ := by simp [Ideal.ofBits, Ideal.ieee]

section Row
variable (r0 r1 w : Fin 1024 → EReal)

/-- Position 0 of the row, shifted up. -/
def pos0 (d : Fin 1024) : EReal := r0 d + shift
/-- Position 1 of the row, shifted down. -/
def pos1 (d : Fin 1024) : EReal := r1 d - shift
/-- The two scores: each shifted position against the query weights. -/
def score0 : EReal := ∑ d : Fin 1024, pos0 r0 d * w d
def score1 : EReal := ∑ d : Fin 1024, pos1 r1 d * w d
/-- The score of position `l`. -/
def score (l : Fin 2) : EReal := match l with | ⟨0, _⟩ => score0 r0 w | ⟨1, _⟩ => score1 r1 w
/-- The weight query position `l` gives to position 0: the logistic function of q_l·(q₀ − q₁). -/
def weight (l : Fin 2) : EReal := Ideal.logistic (score r0 r1 w l * (score0 r0 w - score1 r1 w))
/-- The row's result at position `l`, feature `d`. -/
def rowOut (l : Fin 2) (d : Fin 1024) : EReal :=
  weight r0 r1 w l * pos0 r0 d + (unit - weight r0 r1 w l) * pos1 r1 d

end Row

/-! ## Sums of reals are real -/

theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- With real rows and weights the two scores are real. -/
theorem score_real (ρ0 ρ1 ω : Fin 1024 → ℝ) (l : Fin 2) :
    ∃ q : ℝ, score (fun d => (ρ0 d : EReal)) (fun d => (ρ1 d : EReal)) (fun d => (ω d : EReal)) l = (q : EReal) := by
  match l with
  | ⟨0, _⟩ =>
    refine ⟨∑ d, (ρ0 d + 1 / 32) * ω d, ?_⟩
    show score0 _ _ = _
    unfold score0 pos0
    rw [shift_eq, ← sum_coe]
    refine Finset.sum_congr rfl fun d _ => ?_
    rw [← EReal.coe_add, ← EReal.coe_mul]
  | ⟨1, _⟩ =>
    refine ⟨∑ d, (ρ1 d - 1 / 32) * ω d, ?_⟩
    show score1 _ _ = _
    unfold score1 pos1
    rw [shift_eq, ← sum_coe]
    refine Finset.sum_congr rfl fun d _ => ?_
    rw [← EReal.coe_sub, ← EReal.coe_mul]

/-! ## A two-element softmax is a logistic function -/

theorem softmax2_real (u v M : ℝ) :
    Real.exp (u - M) / (Real.exp (u - M) + Real.exp (v - M)) = (1 + Real.exp (-(u - v)))⁻¹
    ∧ Real.exp (v - M) / (Real.exp (u - M) + Real.exp (v - M)) = 1 - (1 + Real.exp (-(u - v)))⁻¹ := by
  have h : Real.exp (-(u - v)) = Real.exp (v - M) / Real.exp (u - M) := by
    rw [← Real.exp_sub]; congr 1; ring
  have hA : 0 < Real.exp (u - M) := Real.exp_pos _
  have hB : 0 < Real.exp (v - M) := Real.exp_pos _
  rw [h]
  constructor
  · field_simp
  · field_simp; ring

/-- The same on the extended reals, for real logits `x·s`, `x·t` and a real shift `μ`, in the shape the reference
    computes it: exponentials of the shifted logits over their sum from zero. -/
theorem softmax2 (x s t μ : ℝ) :
    Ideal.div (Ideal.exp ((x : EReal) * s - μ)) (0 + (Ideal.exp ((x : EReal) * s - μ) + Ideal.exp ((x : EReal) * t - μ)))
      = Ideal.logistic ((x : EReal) * ((s : EReal) - t))
    ∧ Ideal.div (Ideal.exp ((x : EReal) * t - μ)) (0 + (Ideal.exp ((x : EReal) * s - μ) + Ideal.exp ((x : EReal) * t - μ)))
      = 1 - Ideal.logistic ((x : EReal) * ((s : EReal) - t)) := by
  obtain ⟨h0, h1⟩ := softmax2_real (x * s) (x * t) μ
  have hne : ((Real.exp (x * s - μ) + Real.exp (x * t - μ) : ℝ) : EReal) ≠ 0 := by
    have : (0 : ℝ) < Real.exp (x * s - μ) + Real.exp (x * t - μ) := by positivity
    exact_mod_cast this.ne'
  have hd : x * s - x * t = x * (s - t) := by ring
  rw [← EReal.coe_mul, ← EReal.coe_mul, ← EReal.coe_sub, ← EReal.coe_sub, ← EReal.coe_sub, ← EReal.coe_mul,
    Ideal.exp_coe, Ideal.exp_coe, ← EReal.coe_add, zero_add, Ideal.logistic_coe, ← hd]
  constructor
  · rw [Ideal.div, if_neg hne, ← EReal.coe_inv, ← EReal.coe_mul, ← div_eq_mul_inv, h0]
  · rw [Ideal.div, if_neg hne, ← EReal.coe_inv, ← EReal.coe_mul, ← div_eq_mul_inv, h1, ← EReal.coe_one, ← EReal.coe_sub]

end Cert.Attn

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.KernelRow.lean ====
/-
  The kernel body's arithmetic, read one entry at a time. A block of the kernel is 512 batch rows; each row of the
  input block is the row's two position vectors side by side (columns 0..1023 and 1024..2047), and the weight block
  is one row of 1024 scaled query weights. At row `p` and feature `d` the two values the body stores are the
  row's result (`Cert.Attn.rowOut`) at positions 0 and 1: every intermediate is a pointwise operation, a row sum, or a
  column cast / broadcast, each read at the entry.
-/
import proofs.«168276_j72713796321750_2_alg».proof.Proof.Gen.KernelIdeal.Skeleton
import proofs.«168276_j72713796321750_2_alg».proof.Proof.Spec
import proofs.«168276_j72713796321750_2_alg».proof.Proof.LibLayout

noncomputable section

namespace Cert.KernelIdeal.Row

open Idealize.ShloMosaic Idealize.ShloMosaic.ValueIdx Cert.KernelIdeal Cert.KernelIdeal.Gen Cert.Attn Cert.Attn.Layout

/-- Position 0 of row `p` of an input block: its first 1024 columns. -/
abbrev rowA (x0 : FVec Ideal S512x2048 .f32) (p : Fin 512) : Fin 1024 → EReal :=
  fun d => x0 (ix2 p (⟨d.val, by have := d.isLt; omega⟩ : Fin 2048))
/-- Position 1 of row `p`: its last 1024 columns. -/
abbrev rowB (x0 : FVec Ideal S512x2048 .f32) (p : Fin 512) : Fin 1024 → EReal :=
  fun d => x0 (ix2 p (⟨1024 + d.val, by have := d.isLt; omega⟩ : Fin 2048))
/-- The one row of the weight block. -/
abbrev wrow (x1 : FVec Ideal S1x1024 .f32) : Fin 1024 → EReal := fun d => x1 (ix2 (0 : Fin 1) d)

variable (x0 : FVec Ideal S512x2048 .f32) (x1 : FVec Ideal S1x1024 .f32)

/-- The left half of the row, shifted up. -/
theorem pay2_apply (p : Fin 512) (d : Fin 1024) : k0_pay2 (F := Ideal) x0 (ix2 p d) = pos0 (rowA x0 p) d := by
  unfold k0_pay2 k0_pay1 pos0
  dsimp only
  rw [shapeCast_self]
  show extractStridedSlice S512x1024 ![0, 0] x0 _ (ix2 p d) + Ideal.ofBits .f32 0x3D000000#32 = _
  rw [slice2_axis1_apply 0 x0 _ p d (⟨d.val, by have := d.isLt; omega⟩ : Fin 2048) (by simp)]
  rfl

/-- The right half of the row, shifted down. -/
theorem pay3_apply (p : Fin 512) (d : Fin 1024) : k0_pay3 (F := Ideal) x0 (ix2 p d) = pos1 (rowB x0 p) d := by
  unfold k0_pay3 k0_pay1 pos1
  dsimp only
  rw [shapeCast_self]
  show extractStridedSlice S512x1024 ![0, 1024] x0 _ (ix2 p d) - Ideal.ofBits .f32 0x3D000000#32 = _
  rw [slice2_axis1_apply 1024 x0 _ p d (⟨1024 + d.val, by have := d.isLt; omega⟩ : Fin 2048) rfl]
  rfl

/-- The weight row, broadcast over the block's rows. -/
theorem wbcast_apply (p : Fin 512) (d : Fin 1024) :
    broadcastTo S512x1024 (k0_pay4 (F := Ideal) x1) broadcasts_S1x1024_S512x1024 (ix2 p d) = wrow x1 d := by
  unfold k0_pay4
  dsimp only
  rw [shapeCast_self]
  exact broadcastTo_1b_ab_apply x1 _ p d

/-- The score of position 0 of row `p`. -/
theorem pay5_apply (p : Fin 512) (u : Fin 1) : k0_pay5 (F := Ideal) x0 x1 (ix2 p u) = score0 (rowA x0 p) (wrow x1) := by
  unfold k0_pay5
  dsimp only
  refine (shapeCast_a_a1_apply _ _ p u).trans ?_
  refine (rowSum_apply _ _ _ _ p).trans ?_
  unfold score0
  refine Finset.sum_congr rfl fun k _ => ?_
  show k0_pay2 (F := Ideal) x0 (ix2 p k) * broadcastTo S512x1024 (k0_pay4 (F := Ideal) x1) broadcasts_S1x1024_S512x1024 (ix2 p k) = _
  rw [pay2_apply, wbcast_apply]

/-- The score of position 1 of row `p`. -/
theorem pay6_apply (p : Fin 512) (u : Fin 1) : k0_pay6 (F := Ideal) x0 x1 (ix2 p u) = score1 (rowB x0 p) (wrow x1) := by
  unfold k0_pay6
  dsimp only
  refine (shapeCast_a_a1_apply _ _ p u).trans ?_
  refine (rowSum_apply _ _ _ _ p).trans ?_
  unfold score1
  refine Finset.sum_congr rfl fun k _ => ?_
  show k0_pay3 (F := Ideal) x0 (ix2 p k) * broadcastTo S512x1024 (k0_pay4 (F := Ideal) x1) broadcasts_S1x1024_S512x1024 (ix2 p k) = _
  rw [pay3_apply, wbcast_apply]

/-- The difference of the two scores. -/
theorem pay7_apply (p : Fin 512) (u : Fin 1) :
    k0_pay7 (F := Ideal) x0 x1 (ix2 p u) = score0 (rowA x0 p) (wrow x1) - score1 (rowB x0 p) (wrow x1) := by
  unfold k0_pay7
  show k0_pay5 (F := Ideal) x0 x1 (ix2 p u) - k0_pay6 (F := Ideal) x0 x1 (ix2 p u) = _
  rw [pay5_apply, pay6_apply]

/-- What the body stores in the left half of the output block: the row's result at position 0. -/
theorem pay8_apply (p : Fin 512) (d : Fin 1024) :
    k0_pay8 (F := Ideal) x0 x1 (ix2 p d) = rowOut (rowA x0 p) (rowB x0 p) (wrow x1) 0 d := by
  unfold k0_pay8
  show broadcastTo S512x1024 _ broadcasts_S512x1_S512x1024 (ix2 p d) * k0_pay2 (F := Ideal) x0 (ix2 p d)
      + broadcastTo S512x1024 _ broadcasts_S512x1_S512x1024 (ix2 p d) * k0_pay3 (F := Ideal) x0 (ix2 p d) = _
  rw [broadcastTo_a1_ab_apply, broadcastTo_a1_ab_apply, pay2_apply, pay3_apply]
  show Ideal.logistic (k0_pay5 (F := Ideal) x0 x1 (ix2 p 0) * k0_pay7 (F := Ideal) x0 x1 (ix2 p 0)) * _
      + (Ideal.ofBits .f32 0x3F800000#32 - Ideal.logistic (k0_pay5 (F := Ideal) x0 x1 (ix2 p 0) * k0_pay7 (F := Ideal) x0 x1 (ix2 p 0))) * _ = _
  rw [pay5_apply, pay7_apply]
  rfl

/-- What the body stores in the right half of the output block: the row's result at position 1. -/
theorem pay9_apply (p : Fin 512) (d : Fin 1024) :
    k0_pay9 (F := Ideal) x0 x1 (ix2 p d) = rowOut (rowA x0 p) (rowB x0 p) (wrow x1) 1 d := by
  unfold k0_pay9
  show broadcastTo S512x1024 _ broadcasts_S512x1_S512x1024 (ix2 p d) * k0_pay2 (F := Ideal) x0 (ix2 p d)
      + broadcastTo S512x1024 _ broadcasts_S512x1_S512x1024 (ix2 p d) * k0_pay3 (F := Ideal) x0 (ix2 p d) = _
  rw [broadcastTo_a1_ab_apply, broadcastTo_a1_ab_apply, pay2_apply, pay3_apply]
  show Ideal.logistic (k0_pay6 (F := Ideal) x0 x1 (ix2 p 0) * k0_pay7 (F := Ideal) x0 x1 (ix2 p 0)) * _
      + (Ideal.ofBits .f32 0x3F800000#32 - Ideal.logistic (k0_pay6 (F := Ideal) x0 x1 (ix2 p 0) * k0_pay7 (F := Ideal) x0 x1 (ix2 p 0))) * _ = _
  rw [pay6_apply, pay7_apply]
  rfl

end Cert.KernelIdeal.Row

end
-- ==== Proof.Result.lean ====
/-
  The result both programs compute, as one function of the two argument arrays X : [32768, 2, 1024] and
  W : [1024, 1]: batch row `b` is treated on its own, from its two position vectors X[b, 0, ·], X[b, 1, ·] and the
  scaled weights W[·, 0]·c, by `Cert.Attn.rowOut`. The kernel holds the two positions of a row side by side in one
  row of 2048 entries; `resultFlat` is the result in that layout.
-/
import proofs.«168276_j72713796321750_2_alg».proof.Proof.Spec

noncomputable section

namespace Cert.Attn

open Idealize.ShloMosaic Idealize.ShloMosaic.ValueIdx

/-- Position `l` of batch row `b` of the first argument. -/
def argRow (X : (⟨3, ![32768, 2, 1024]⟩ : Shape).Idx → EReal) (b : Fin 32768) (l : Fin 2) : Fin 1024 → EReal :=
  fun d => X (ix3 b l d)
/-- The query weights, scaled by the shift constant. -/
def argW (W : (⟨2, ![1024, 1]⟩ : Shape).Idx → EReal) : Fin 1024 → EReal := fun d => W (ix2 d (0 : Fin 1)) * shift

/-- The result at batch row `b`, position `l`, feature `d`. -/
def result3 (X : (⟨3, ![32768, 2, 1024]⟩ : Shape).Idx → EReal) (W : (⟨2, ![1024, 1]⟩ : Shape).Idx → EReal)
    (b : Fin 32768) (l : Fin 2) (d : Fin 1024) : EReal :=
  rowOut (argRow X b 0) (argRow X b 1) (argW W) l d

/-- The result array. -/
def result (X : (⟨3, ![32768, 2, 1024]⟩ : Shape).Idx → EReal) (W : (⟨2, ![1024, 1]⟩ : Shape).Idx → EReal) :
    (⟨3, ![32768, 2, 1024]⟩ : Shape).Idx → EReal :=
  fun i => result3 X W ⟨(i 0).val, (i 0).isLt⟩ ⟨(i 1).val, (i 1).isLt⟩ ⟨(i 2).val, (i 2).isLt⟩

/-- The result with a row's two positions side by side: entry `(b, k)` is position `k / 1024`, feature `k % 1024`. -/
def resultFlat (X : (⟨3, ![32768, 2, 1024]⟩ : Shape).Idx → EReal) (W : (⟨2, ![1024, 1]⟩ : Shape).Idx → EReal) :
    (⟨2, ![32768, 2048]⟩ : Shape).Idx → EReal :=
  fun j => result3 X W ⟨(j 0).val, (j 0).isLt⟩
    ⟨(j 1).val / 1024, by have h : (j 1).val < 2048 := (j 1).isLt; omega⟩
    ⟨(j 1).val % 1024, Nat.mod_lt _ (by decide)⟩

theorem result_ix3 (X : (⟨3, ![32768, 2, 1024]⟩ : Shape).Idx → EReal) (W : (⟨2, ![1024, 1]⟩ : Shape).Idx → EReal)
    (b : Fin 32768) (l : Fin 2) (d : Fin 1024) : result X W (ix3 b l d) = result3 X W b l d := rfl

end Cert.Attn

end
-- ==== Proof.KernelValue.lean ====
/-
  The kernel's result array as ONE function of the argument arrays.
  The region's grid has 64 points; point `t` reads rows 512·t … 512·t + 511 of the flattened input (a batch row's two
  positions side by side) and the single row of scaled weights, and writes the same rows of the flattened output: the
  left half of each row is the row's result at position 0, the right half at position 1. The 64 blocks tile the
  output, so after the run the output array is `resultFlat` of the arguments; the reshape after the region reads it
  back as the [32768, 2, 1024] array `result`.
-/
import proofs.«168276_j72713796321750_2_alg».proof.Proof.Gen.KernelIdeal.Frame
import proofs.«168276_j72713796321750_2_alg».proof.Proof.KernelRow
import proofs.«168276_j72713796321750_2_alg».proof.Proof.Result
import Idealize.ShloMosaic.Lib.Pipeline.Value
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Idealize.ShloMosaic.StableHlo
open Cert.KernelIdeal Cert.KernelIdeal.Gen Cert.KernelIdeal.Row Cert.Attn Cert.Attn.Layout

variable (m : (ℓ : Loc nD τ sig) → Buf (Elt Ideal) ℓ) (ρ : Dev nD → PrngReg)

theorem hz : (![0, 0] : Fin 2 → Nat) = fun _ => 0 := funext fun a => by fin_cases a <;> rfl

/-- The two argument arrays on core `c`, as arrays of extended reals. -/
abbrev argX (c : Dev nD) : (⟨3, ![32768, 2, 1024]⟩ : Shape).Idx → EReal := m ((c : Thread nD τ).loc main_arg0)
abbrev argWt (c : Dev nD) : (⟨2, ![1024, 1]⟩ : Shape).Idx → EReal := m ((c : Thread nD τ).loc main_arg1)

/-! ## What the body leaves in the output block -/

/-- The output block as one function of the input blocks: row `y 0`, position `y 1 / 1024`, feature `y 1 % 1024`. -/
def blockOut (x0 : FVec Ideal S512x2048 .f32) (x1 : FVec Ideal S1x1024 .f32) : S512x2048.Idx → EReal := fun y =>
  rowOut (rowA x0 ⟨(y 0).val, (y 0).isLt⟩) (rowB x0 ⟨(y 0).val, (y 0).isLt⟩) (wrow x1)
    ⟨(y 1).val / 1024, by have h : (y 1).val < 2048 := (y 1).isLt; omega⟩ ⟨(y 1).val % 1024, Nat.mod_lt _ (by decide)⟩

/-- The two half-row stores are the two halves of that function. -/
theorem out_eq (x0 : FVec Ideal S512x2048 .f32) (x1 : FVec Ideal S1x1024 .f32) :
    out0_2 (F := Ideal) x0 x1 = blockOut x0 x1 := by
  funext y
  unfold out0_2
  rw [View.ld_unit_zero (S := S512x2048) hz, View.ld_unit_zero (S := S1x1024) hz]
  refine View.canon_apply_of_pieces (Val := Elt Ideal) (blockOut x0 x1) _ ?_ y (cover0_2 _ _ y)
  intro q hq x
  simp only [List.mem_cons, List.mem_nil_iff, or_false] at hq
  rcases hq with rfl | rfl
  · have key : ∀ (p' : Fin 512) (l' : Fin 2) (d' : Fin 1024), p' = ⟨(x 0).val, (x 0).isLt⟩ → l' = 1 → d' = ⟨(x 1).val, (x 1).isLt⟩ →
        k0_pay9 (F := Ideal) x0 x1 x = rowOut (rowA x0 p') (rowB x0 p') (wrow x1) l' d' := by
      rintro _ _ _ rfl rfl rfl
      exact (congrArg (k0_pay9 (F := Ideal) x0 x1) (eq_ix2 x)).trans (pay9_apply x0 x1 _ _)
    have hx1 : (x 1).val < 1024 := (x 1).isLt
    refine key _ _ _ (Fin.ext ?_) (Fin.ext ?_) (Fin.ext ?_)
    · show 0 + 1 * (x 0).val = (x 0).val; omega
    · show (1024 + 1 * (x 1).val) / 1024 = 1; omega
    · show (1024 + 1 * (x 1).val) % 1024 = (x 1).val; omega
  · have key : ∀ (p' : Fin 512) (l' : Fin 2) (d' : Fin 1024), p' = ⟨(x 0).val, (x 0).isLt⟩ → l' = 0 → d' = ⟨(x 1).val, (x 1).isLt⟩ →
        k0_pay8 (F := Ideal) x0 x1 x = rowOut (rowA x0 p') (rowB x0 p') (wrow x1) l' d' := by
      rintro _ _ _ rfl rfl rfl
      exact (congrArg (k0_pay8 (F := Ideal) x0 x1) (eq_ix2 x)).trans (pay8_apply x0 x1 _ _)
    have hx1 : (x 1).val < 1024 := (x 1).isLt
    refine key _ _ _ (Fin.ext ?_) (Fin.ext ?_) (Fin.ext ?_)
    · show 0 + 1 * (x 0).val = (x 0).val; omega
    · show (0 + 1 * (x 1).val) / 1024 = 0; omega
    · show (0 + 1 * (x 1).val) % 1024 = (x 1).val; omega

/-! ## The arrays the region finds -/

/-- The flattened input: the first argument's rows of 2 × 1024 read as rows of 2048. -/
theorem V_v0 (c : Dev nD) : (V m c main_v0 : S32768x2048.Idx → EReal)
    = shapeCast S32768x2048 (m ((c : Thread nD τ).loc main_arg0)) shapeCasts_S32768x2x1024_S32768x2048 := by
  show StableHlo.after hostOps0 (fun b => m (c, b)) (Proc.devRef .tc main_v0) = _
  after_results; rfl

theorem V_v0_apply (c : Dev nD) (b : Fin 32768) (k : Fin 2048) (l : Fin 2) (d : Fin 1024) (hk : k.val = 1024 * l.val + d.val) :
    (V m c main_v0 : S32768x2048.Idx → EReal) (ix2 b k) = argX m c (ix3 b l d) := by
  rw [V_v0]
  refine shapeCast_apply (argX m c) _ _ _ ?_
  show (S32768x2x1024.rowMajor (ix3 b l d)).val = (S32768x2048.rowMajor (ix2 b k)).val
  rw [Shape.rowMajor_val_three, Shape.rowMajor_val_two]
  show (b.val * 2 + l.val) * 1024 + d.val = b.val * 2048 + k.val
  omega

/-- The weight row: the second argument's one column, scaled, laid out as one row. -/
theorem V_v4 (c : Dev nD) : (V m c main_v4 : S1x1024.Idx → EReal)
    = shapeCast S1x1024 (mulf (shapeCast S1024 (m ((c : Thread nD τ).loc main_arg1)) shapeCasts_S1024x1_S1024)
        (broadcastInDim S1024 ![] bcast_S_S1024 (constant (F := Ideal) S_ .f32 0x3D000000#32))) shapeCasts_S1024_S1x1024 := by
  show StableHlo.after hostOps0 (fun b => m (c, b)) (Proc.devRef .tc main_v4) = _
  after_results; rfl

theorem V_v4_apply (c : Dev nD) (u : Fin 1) (d : Fin 1024) :
    (V m c main_v4 : S1x1024.Idx → EReal) (ix2 u d) = argWt m c (ix2 d (0 : Fin 1)) * shift := by
  rw [V_v4, shapeCast_a_1a_apply]
  show shapeCast S1024 (argWt m c) shapeCasts_S1024x1_S1024 (ix1 d) * _ = _
  rw [shapeCast_apply (argWt m c) shapeCasts_S1024x1_S1024 (ix1 d) (ix2 d (0 : Fin 1))
    (by show (S1024x1.rowMajor (ix2 d (0 : Fin 1))).val = (S1024.rowMajor (ix1 d)).val
        rw [Shape.rowMajor_val_two, Shape.rowMajor_val_one]; show d.val * 1 + 0 = d.val; omega)]
  rfl

/-! ## The blocks at a grid point -/

/-- The printed index maps over the grid: the input and the output move one block of rows per point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The batch row that row `p` of point `t`'s block is. -/
def grow (t : Fin cfg0.N) (p : Fin 512) : Fin 32768 :=
  ⟨512 * t.val + p.val, by have hN : cfg0.N = 64 := N_0; have := t.isLt; have := p.isLt; omega⟩

theorem iblk0_apply (c : Dev nD) (t : Fin cfg0.N) (p : Fin 512) (k : Fin 2048) :
    (iblk m c 0 t : FVec Ideal S512x2048 .f32) (ix2 p k) = (V m c main_v0 : S32768x2048.Idx → EReal) (ix2 (grow t p) k) := by
  obtain ⟨e0, e1, -⟩ := idx_facts t
  unfold iblk
  rw [View.read_apply]
  show V m c main_v0 (((cfg0.win 0).blk t).view.emb (ix2 p k)) = V m c main_v0 (ix2 (grow t p) k)
  refine congrArg (V m c main_v0) ?_
  funext a; apply Fin.ext
  match a with
  | ⟨0, _⟩ => show win0_0.index t (0 : Fin 2) * 512 + 1 * p.val = 512 * t.val + p.val; rw [e0]; omega
  | ⟨1, _⟩ => show win0_0.index t (1 : Fin 2) * 2048 + 1 * k.val = k.val; rw [e1]; omega

theorem iblk1_apply (c : Dev nD) (t : Fin cfg0.N) (u : Fin 1) (d : Fin 1024) :
    (iblk m c 1 t : FVec Ideal S1x1024 .f32) (ix2 u d) = (V m c main_v4 : S1x1024.Idx → EReal) (ix2 u d) := by
  obtain ⟨-, -, e2, e3, -⟩ := idx_facts t
  unfold iblk
  rw [View.read_apply]
  show V m c main_v4 (((cfg0.win 1).blk t).view.emb (ix2 u d)) = V m c main_v4 (ix2 u d)
  refine congrArg (V m c main_v4) ?_
  funext a; apply Fin.ext
  match a with
  | ⟨0, _⟩ => show win0_1.index t (0 : Fin 2) * 1 + 1 * u.val = u.val; rw [e2]; omega
  | ⟨1, _⟩ => show win0_1.index t (1 : Fin 2) * 1024 + 1 * d.val = d.val; rw [e3]; omega

/-- Row `p` of point `t`'s input block is the two positions of batch row `512·t + p`. -/
theorem rowA_iblk (c : Dev nD) (t : Fin cfg0.N) (p : Fin 512) :
    rowA (iblk m c 0 t : FVec Ideal S512x2048 .f32) p = argRow (m ((c : Thread nD τ).loc main_arg0)) (grow t p) 0 := by
  funext d
  show (iblk m c 0 t : FVec Ideal S512x2048 .f32) (ix2 p _) = _
  rw [iblk0_apply]
  exact V_v0_apply m c _ _ 0 d (by show d.val = 1024 * 0 + d.val; omega)

theorem rowB_iblk (c : Dev nD) (t : Fin cfg0.N) (p : Fin 512) :
    rowB (iblk m c 0 t : FVec Ideal S512x2048 .f32) p = argRow (m ((c : Thread nD τ).loc main_arg0)) (grow t p) 1 := by
  funext d
  show (iblk m c 0 t : FVec Ideal S512x2048 .f32) (ix2 p _) = _
  rw [iblk0_apply]
  exact V_v0_apply m c _ _ 1 d (by show 1024 + d.val = 1024 * 1 + d.val; omega)

/-- The weight block is the scaled weights at every point. -/
theorem wrow_iblk (c : Dev nD) (t : Fin cfg0.N) :
    wrow (iblk m c 1 t : FVec Ideal S1x1024 .f32) = argW (m ((c : Thread nD τ).loc main_arg1)) := by
  funext d
  show (iblk m c 1 t : FVec Ideal S1x1024 .f32) (ix2 (0 : Fin 1) d) = _
  rw [iblk1_apply, V_v4_apply]
  rfl

/-! ## What a point writes back, the cover, the array after the run -/

/-- What point `t` writes back is block `t` of `resultFlat` of the arguments. -/
theorem flushed_eq (c : Dev nD) (t : Fin cfg0.N) :
    (dats m 0 c).flushed 2 t = ((cfg0.win 2).blk t).view.read (Elt Ideal)
      (resultFlat (m ((c : Thread nD τ).loc main_arg0)) (m ((c : Thread nD τ).loc main_arg1))) := by
  show (cfg0.win 2).cut (grid0.coords t) ((dats m 0 c).after 2 t) = _
  rw [after0_2, out_eq]
  obtain ⟨-, -, -, -, e4, e5⟩ := idx_facts t
  funext j
  have hj0 : (j 0).val < 512 := (j 0).isLt
  have hj1 : (j 1).val < 2048 := (j 1).isLt
  have key : ∀ (B : Fin 32768) (L : Fin 2) (D : Fin 1024), B = grow t ⟨(j 0).val, hj0⟩ → L = ⟨(j 1).val / 1024, by omega⟩ →
      D = ⟨(j 1).val % 1024, Nat.mod_lt _ (by decide)⟩ →
      blockOut (iblk m c 0 t) (iblk m c 1 t) j
        = result3 (m ((c : Thread nD τ).loc main_arg0)) (m ((c : Thread nD τ).loc main_arg1)) B L D := by
    rintro _ _ _ rfl rfl rfl
    unfold blockOut result3
    rw [rowA_iblk, rowB_iblk, wrow_iblk]
  refine key _ _ _ (Fin.ext ?_) (Fin.ext ?_) (Fin.ext ?_)
  · show win0_2.index t (0 : Fin 2) * 512 + 1 * (j 0).val = 512 * t.val + (j 0).val; rw [e4]; omega
  · show (win0_2.index t (1 : Fin 2) * 2048 + 1 * (j 1).val) / 1024 = (j 1).val / 1024; rw [e5]; omega
  · show (win0_2.index t (1 : Fin 2) * 2048 + 1 * (j 1).val) % 1024 = (j 1).val % 1024; rw [e5]; omega

/-- An index of the output array is in point `t`'s block iff each coordinate is in the block's range on its axis. -/
theorem mem_blk (t : Fin cfg0.N) (i : S32768x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v5).slice (win0_2.rect t)).set ↔ _
  rw [View.set_slice_whole, Rect.mem_set_unit]
  exact Iff.rfl

/-- The output array after the run: every row is in the block of the point `row / 512`. -/
theorem final (c : Dev nD) : (dats m 0 c).arrAt 2 cfg0.N
    = resultFlat (m ((c : Thread nD τ).loc main_arg0)) (m ((c : Thread nD τ).loc main_arg1)) :=
  (dats m 0 c).arrAt_eq_of_cover 2 _ (fun t _ => flushed_eq m c t) fun i => by
    have hN : cfg0.N = 64 := N_0
    have hi0 : (i 0).val < 32768 := (i 0).isLt
    have hi1 : (i 1).val < 2048 := (i 1).isLt
    obtain ⟨t, ht⟩ : ∃ t : Fin cfg0.N, t.val = (i 0).val / 512 := ⟨⟨(i 0).val / 512, by rw [hN]; omega⟩, rfl⟩
    obtain ⟨-, -, -, -, e4, e5⟩ := idx_facts t
    refine ⟨t, flush0_2 t, ?_⟩
    rw [mem_blk]
    intro a
    match a with
    | ⟨0, _⟩ =>
      show win0_2.index t (0 : Fin 2) * 512 ≤ (i 0).val ∧ (i 0).val < win0_2.index t (0 : Fin 2) * 512 + 512
      rw [e4, ht]; omega
    | ⟨1, _⟩ =>
      show win0_2.index t (1 : Fin 2) * 2048 ≤ (i 1).val ∧ (i 1).val < win0_2.index t (1 : Fin 2) * 2048 + 2048
      rw [e5]; omega

/-! ## The reshape after the region, and the run -/

/-- The program's result: the output array read back as [32768, 2, 1024]. -/
theorem result_eq (c : Dev nD) : Pipeline.afterTail₀ cfgs (dats m) 0 (V0 m) [hostOps1] c main_v6
    = result (m ((c : Thread nD τ).loc main_arg0)) (m ((c : Thread nD τ).loc main_arg1)) := by
  have hw : Pipeline.withArrays spec0 c (V0 m c) (fun w => (dats m 0 c).arrAt w cfg0.N) (Proc.devRef .tc (Pipeline.arrRef spec0 2))
      = resultFlat (m ((c : Thread nD τ).loc main_arg0)) (m ((c : Thread nD τ).loc main_arg1)) :=
    (Pipeline.withArrays_arr spec0 launch0.win.arr_inj c _ _ 2).trans (final m c)
  unfold Pipeline.afterTail₀
  show StableHlo.after hostOps1 _ (Proc.devRef .tc main_v6) = _
  after_results
  funext i
  show shapeCast S32768x2x1024 (Pipeline.withArrays spec0 c (V0 m c) (fun w => (dats m 0 c).arrAt w cfg0.N) (Proc.devRef .tc (Pipeline.arrRef spec0 2)))
    shapeCasts_S32768x2048_S32768x2x1024 i = _
  rw [hw]
  have hi0 : (i 0).val < 32768 := (i 0).isLt
  have hi1 : (i 1).val < 2 := (i 1).isLt
  have hi2 : (i 2).val < 1024 := (i 2).isLt
  refine (shapeCast_apply _ shapeCasts_S32768x2048_S32768x2x1024 i
    (ix2 (⟨(i 0).val, hi0⟩ : Fin 32768) (⟨1024 * (i 1).val + (i 2).val, by omega⟩ : Fin 2048)) ?_).trans ?_
  · rw [Shape.rowMajor_val_three, Shape.rowMajor_val_two]
    show (i 0).val * 2048 + (1024 * (i 1).val + (i 2).val) = ((i 0).val * 2 + (i 1).val) * 1024 + (i 2).val
    omega
  · have key : ∀ (L : Fin 2) (D : Fin 1024), L = ⟨(i 1).val, hi1⟩ → D = ⟨(i 2).val, hi2⟩ →
        result3 (m ((c : Thread nD τ).loc main_arg0)) (m ((c : Thread nD τ).loc main_arg1)) ⟨(i 0).val, hi0⟩ L D
          = result (m ((c : Thread nD τ).loc main_arg0)) (m ((c : Thread nD τ).loc main_arg1)) i := by
      rintro _ _ rfl rfl; rfl
    refine key _ _ (Fin.ext ?_) (Fin.ext ?_)
    · show (1024 * (i 1).val + (i 2).val) / 1024 = (i 1).val; omega
    · show (1024 * (i 1).val + (i 2).val) % 1024 = (i 2).val; omega

/-- The kernel program's run, read: the result at `result` of the arguments, the arguments unchanged. -/
theorem run : θ_run defs (onTc (τ := τ) (main (F := Ideal))) ⟨m, fun _ => 0, ρ⟩ fun r => ∀ c : Dev nD,
      r.2.mem ((c.tc : Thread nD τ).loc main_v6) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Whole

end
-- ==== Proof.RefValue.lean ====
/-
  The reference, stage by stage, at an entry. For batch row `b`: the positional term is +c on position 0 and −c on
  position 1 (a row of ones and a row of minus ones, times c), the projection is the row's two scores, the logits are
  their products, and the softmax over a row of two logits — exponentials of the logits less their maximum, over their
  sum — gives the two attention weights. With finite arguments the scores are real numbers, the two weights are the
  logistic function of the logits' difference and one minus it, and the weighted sum of the two shifted positions is
  `Cert.Attn.result`.
-/
import proofs.«168276_j72713796321750_2_alg».proof.Proof.Gen.ReferenceIdeal.Read
import proofs.«168276_j72713796321750_2_alg».proof.Proof.Result
import Idealize.ShloMosaic.Lib.ValueLayout

noncomputable section

namespace Cert.ReferenceIdeal.RefValue

open Idealize.ShloMosaic Idealize.ShloMosaic.ValueIdx Cert.ReferenceIdeal Cert.ReferenceIdeal.Gen Cert.ReferenceIdeal.Read Cert.Attn

variable (X : S32768x2x1024.Idx → EReal) (W : S1024x1.Idx → EReal)

/-! ## The positional term -/

/-- The stacked signs times the shift: +c on position 0, −c on position 1. -/
theorem v6_zero (d : Fin 1024) : val_main_v6 (F := Ideal) (ix2 (0 : Fin 2) d) = shift := by
  rw [val_main_v6_apply, val_main_v5_apply, val_main_cst_0_apply]
  unfold val_main_v4
  rw [concatenate_pair_apply_left (s₁ := S1x1024) (s₂ := S1x1024) (0 : Fin 2) _ _ concatenates_S1x1024_S1x1024_S2x1024_d0 (ix2 (0 : Fin 2) d) rfl (ix2 (0 : Fin 1) d)
    (fun b => by match b with | ⟨0, _⟩ => rfl | ⟨1, _⟩ => rfl)]
  rw [val_main_v2_apply, val_main_v0_apply, val_main_cst_apply]
  show Ideal.ofBits .f32 0x3F800000#32 * Ideal.ofBits .f32 0x3D000000#32 = shift
  rw [ofBits_one, one_mul]; rfl

theorem v6_one (d : Fin 1024) : val_main_v6 (F := Ideal) (ix2 (1 : Fin 2) d) = -shift := by
  rw [val_main_v6_apply, val_main_v5_apply, val_main_cst_0_apply]
  unfold val_main_v4
  rw [concatenate_pair_apply_right (s₁ := S1x1024) (s₂ := S1x1024) (0 : Fin 2) _ _ concatenates_S1x1024_S1x1024_S2x1024_d0 (ix2 (1 : Fin 2) d) rfl rfl (ix2 (0 : Fin 1) d)
    (fun b hb => by match b with | ⟨0, _⟩ => exact absurd rfl hb | ⟨1, _⟩ => rfl) rfl]
  rw [val_main_v3_apply, val_main_v1_apply, val_main_v0_apply, val_main_cst_apply]
  show -(Ideal.ofBits .f32 0x3F800000#32) * Ideal.ofBits .f32 0x3D000000#32 = -shift
  rw [ofBits_one, EReal.neg_mul, one_mul]; rfl

theorem v8_apply (b : Fin 32768) (l : Fin 2) (d : Fin 1024) :
    val_main_v8 (F := Ideal) (ix3 b l d) = val_main_v6 (F := Ideal) (ix2 l d) := by
  rw [val_main_v8_apply, val_main_v7_apply]
  exact congrArg _ (funext fun a => Fin.ext (by match a with | ⟨0, _⟩ => rfl | ⟨1, _⟩ => rfl))

/-- The shifted positions. -/
theorem v9_zero (b : Fin 32768) (d : Fin 1024) : val_main_v9 (F := Ideal) X (ix3 b 0 d) = pos0 (argRow X b 0) d := by
  rw [val_main_v9_apply, v8_apply, v6_zero]; rfl
theorem v9_one (b : Fin 32768) (d : Fin 1024) : val_main_v9 (F := Ideal) X (ix3 b 1 d) = pos1 (argRow X b 1) d := by
  rw [val_main_v9_apply, v8_apply, v6_one]
  show X (ix3 b 1 d) + -shift = X (ix3 b 1 d) - shift
  rw [sub_eq_add_neg]

/-- The scaled weights. -/
theorem v11_apply (d : Fin 1024) : val_main_v11 (F := Ideal) W (ix2 d (0 : Fin 1)) = argW W d := by
  rw [val_main_v11_apply, val_main_v10_apply, val_main_cst_1_apply]; rfl

/-! ## The scores and the logits -/

theorem v12_apply (b : Fin 32768) (l : Fin 2) (u : Fin 1) :
    val_main_v12 (F := Ideal) X W (ix3 b l u) = score (argRow X b 0) (argRow X b 1) (argW W) l := by
  have hu : u = 0 := Subsingleton.elim _ _
  subst hu
  rw [val_main_v12_apply]
  have el : ∀ k : Fin 1024, lidx_main_v12 (ix3 b l (0 : Fin 1)) k = ix3 b l k := fun k =>
    funext fun a => Fin.ext (by match a with | ⟨0, _⟩ => rfl | ⟨1, _⟩ => rfl | ⟨2, _⟩ => rfl)
  have er : ∀ k : Fin 1024, ridx_main_v12 (ix3 b l (0 : Fin 1)) k = ix2 k (0 : Fin 1) := fun k =>
    funext fun a => Fin.ext (by match a with | ⟨0, _⟩ => rfl | ⟨1, _⟩ => rfl)
  simp only [el, er, v11_apply]
  match l with
  | ⟨0, _⟩ =>
    show _ = score0 _ _
    unfold score0
    exact Finset.sum_congr rfl fun k _ => congrArg (· * argW W k) (v9_zero X b k)
  | ⟨1, _⟩ =>
    show _ = score1 _ _
    unfold score1
    exact Finset.sum_congr rfl fun k _ => congrArg (· * argW W k) (v9_one X b k)

theorem v13_apply (b : Fin 32768) (mq n : Fin 2) :
    val_main_v13 (F := Ideal) X W (ix3 b mq n)
      = score (argRow X b 0) (argRow X b 1) (argW W) mq * score (argRow X b 0) (argRow X b 1) (argW W) n := by
  rw [val_main_v13_apply, Fin.sum_univ_one]
  have el : lidx_main_v13 (ix3 b mq n) (0 : Fin 1) = ix3 b mq (0 : Fin 1) :=
    funext fun a => Fin.ext (by match a with | ⟨0, _⟩ => rfl | ⟨1, _⟩ => rfl | ⟨2, _⟩ => rfl)
  have er : ridx_main_v13 (ix3 b mq n) (0 : Fin 1) = ix3 b n (0 : Fin 1) :=
    funext fun a => Fin.ext (by match a with | ⟨0, _⟩ => rfl | ⟨1, _⟩ => rfl | ⟨2, _⟩ => rfl)
  rw [el, er, v12_apply, v12_apply]

/-! ## The row maximum -/

theorem coe_max (a b : ℝ) : max (a : EReal) b = ((max a b : ℝ) : EReal) :=
  (EReal.coe_strictMono.monotone.map_max).symm

theorem fold_max_fin2 (f : Fin 2 → EReal) : (Finset.univ : Finset (Fin 2)).fold max ⊥ f = max (f 0) (f 1) := by
  rw [show (Finset.univ : Finset (Fin 2)) = insert 0 {1} from by decide, Finset.fold_insert (by decide), Finset.fold_singleton]
  rw [max_eq_left (bot_le : (⊥ : EReal) ≤ f 1)]

theorem hred : S32768x2x2.Reduces [2] S32768x2 := by decide

/-- The index a reduction over the last axis inserts. -/
theorem lift3 (b : Fin 32768) (mq : Fin 2) (k : Fin (S32768x2x2.size 2)) :
    hred.lift (ix2 b mq) k = ix3 b mq (⟨k.val, k.isLt⟩ : Fin 2) := by
  funext c; apply Fin.ext; fin_cases c <;> rfl

/-- The maximum over a row of two logits, from −∞. -/
theorem v14_apply (b : Fin 32768) (mq : Fin 2) :
    val_main_v14 (F := Ideal) X W (ix2 b mq)
      = max (val_main_v13 (F := Ideal) X W (ix3 b mq 0)) (val_main_v13 (F := Ideal) X W (ix3 b mq 1)) := by
  unfold val_main_v14
  refine (Host.reduce_eq_fold_single FloatOps.maximumf _ _ reducesTo_S32768x2x2_S32768x2_d2 hred h_S_ (ix2 b mq)).trans ?_
  have hf : (val_main_v13 (F := Ideal) X W ∘ hred.lift (ix2 b mq))
      = fun k : Fin 2 => val_main_v13 (F := Ideal) X W (ix3 b mq k) :=
    funext fun k => congrArg (val_main_v13 (F := Ideal) X W) (lift3 b mq k)
  refine (congrArg (fun f => Finset.fold max (Ideal.ofBits .f32 0xFF800000#32) f (Finset.univ : Finset (Fin 2))) hf).trans ?_
  rw [ofBits_neg_inf]
  exact fold_max_fin2 _

theorem v16_apply (b : Fin 32768) (mq : Fin 2) :
    val_main_v16 (F := Ideal) X W (ix2 b mq)
      = max (val_main_v13 (F := Ideal) X W (ix3 b mq 0)) (val_main_v13 (F := Ideal) X W (ix3 b mq 1)) := by
  rw [val_main_v16_apply, val_main_v15_apply, val_main_cst_3_apply, v14_apply]
  show max (Ideal.ofBits .f32 0xFF800000#32) _ = _
  rw [ofBits_neg_inf, max_eq_right bot_le]

theorem v18_apply (b : Fin 32768) (mq n : Fin 2) :
    val_main_v18 (F := Ideal) X W (ix3 b mq n) = val_main_v16 (F := Ideal) X W (ix2 b mq) := by
  rw [val_main_v18_apply, val_main_v17_apply]
  exact congrArg _ (funext fun a => Fin.ext (by match a with | ⟨0, _⟩ => rfl | ⟨1, _⟩ => rfl))

/-! ## The exponentials, their sum, the weights -/

theorem v20_apply (b : Fin 32768) (mq n : Fin 2) :
    val_main_v20 (F := Ideal) X W (ix3 b mq n)
      = Ideal.exp (val_main_v13 (F := Ideal) X W (ix3 b mq n) - val_main_v16 (F := Ideal) X W (ix2 b mq)) := by
  rw [val_main_v20_apply, val_main_v19_apply, v18_apply]; rfl

theorem v23_apply (b : Fin 32768) (mq n : Fin 2) :
    val_main_v23 (F := Ideal) X W (ix3 b mq n)
      = 0 + (val_main_v20 (F := Ideal) X W (ix3 b mq 0) + val_main_v20 (F := Ideal) X W (ix3 b mq 1)) := by
  rw [val_main_v23_apply, val_main_v22_apply]
  have e : idx_main_v22 (idx_main_v23 (ix3 b mq n)) = ix2 b mq :=
    funext fun a => Fin.ext (by match a with | ⟨0, _⟩ => rfl | ⟨1, _⟩ => rfl)
  rw [e, val_main_v21_apply, val_main_cst_4_apply, Fin.sum_univ_two]
  have e0 : idx_main_v21 (ix2 b mq) (0 : Fin 2) = ix3 b mq (0 : Fin 2) :=
    funext fun a => Fin.ext (by match a with | ⟨0, _⟩ => rfl | ⟨1, _⟩ => rfl | ⟨2, _⟩ => rfl)
  have e1 : idx_main_v21 (ix2 b mq) (1 : Fin 2) = ix3 b mq (1 : Fin 2) :=
    funext fun a => Fin.ext (by match a with | ⟨0, _⟩ => rfl | ⟨1, _⟩ => rfl | ⟨2, _⟩ => rfl)
  rw [e0, e1]
  show Ideal.ofBits .f32 0x00000000#32 + _ = _
  rw [Ideal.ofBits_zero_f32]

/-- With real scores the two attention weights of query position `mq` are the logistic weight and its complement. -/
theorem v24_apply (b : Fin 32768) (mq : Fin 2)
    (hq : ∀ l, ∃ q : ℝ, score (argRow X b 0) (argRow X b 1) (argW W) l = (q : EReal)) :
    val_main_v24 (F := Ideal) X W (ix3 b mq 0) = weight (argRow X b 0) (argRow X b 1) (argW W) mq
    ∧ val_main_v24 (F := Ideal) X W (ix3 b mq 1) = unit - weight (argRow X b 0) (argRow X b 1) (argW W) mq := by
  obtain ⟨x, hx⟩ := hq mq
  obtain ⟨s, hs⟩ := hq 0
  obtain ⟨t, ht⟩ := hq 1
  have hs' : score0 (argRow X b 0) (argW W) = (s : EReal) := hs
  have ht' : score1 (argRow X b 1) (argW W) = (t : EReal) := ht
  rw [val_main_v24_apply, val_main_v24_apply, v23_apply, v23_apply, v20_apply, v20_apply, v16_apply, v13_apply, v13_apply, hx, hs, ht]
  simp only [Ideal.hostDivf_def]
  unfold weight
  rw [hx, hs', ht', unit_eq]
  have hmax : max ((x : EReal) * s) ((x : EReal) * t) = ((max (x * s) (x * t) : ℝ) : EReal) := by
    rw [← EReal.coe_mul, ← EReal.coe_mul, coe_max]
  rw [hmax]
  exact softmax2 x s t (max (x * s) (x * t))

/-! ## The weighted sum -/

theorem v25_apply (b : Fin 32768) (mq : Fin 2) (d : Fin 1024)
    (hq : ∀ l, ∃ q : ℝ, score (argRow X b 0) (argRow X b 1) (argW W) l = (q : EReal)) :
    val_main_v25 (F := Ideal) X W (ix3 b mq d) = result3 X W b mq d := by
  rw [val_main_v25_apply, Fin.sum_univ_two]
  have el : ∀ k : Fin 2, lidx_main_v25 (ix3 b mq d) k = ix3 b mq k := fun k =>
    funext fun a => Fin.ext (by match a with | ⟨0, _⟩ => rfl | ⟨1, _⟩ => rfl | ⟨2, _⟩ => rfl)
  have er : ∀ k : Fin 2, ridx_main_v25 (ix3 b mq d) k = ix3 b k d := fun k =>
    funext fun a => Fin.ext (by match a with | ⟨0, _⟩ => rfl | ⟨1, _⟩ => rfl | ⟨2, _⟩ => rfl)
  obtain ⟨h0, h1⟩ := v24_apply X W b mq hq
  rw [el, el, er, er, h0, h1, v9_zero, v9_one]
  rfl

/-! ## Finite arguments give real scores -/

theorem score_real_of_finite (b : Fin 32768) (hX : ∀ i, ∃ r : ℝ, X i = (r : EReal)) (hW : ∀ i, ∃ r : ℝ, W i = (r : EReal)) (l : Fin 2) :
    ∃ q : ℝ, score (argRow X b 0) (argRow X b 1) (argW W) l = (q : EReal) := by
  choose ξ hξ using hX
  choose ω hω using hW
  have e0 : argRow X b 0 = fun d => ((ξ (ix3 b 0 d) : ℝ) : EReal) := funext fun d => hξ _
  have e1 : argRow X b 1 = fun d => ((ξ (ix3 b 1 d) : ℝ) : EReal) := funext fun d => hξ _
  have ew : argW W = fun d => ((ω (ix2 d (0 : Fin 1)) * (1 / 32) : ℝ) : EReal) := funext fun d => by
    show W _ * shift = _
    rw [hω, shift_eq, ← EReal.coe_mul]
  rw [e0, e1, ew]
  exact score_real _ _ _ l

/-- The reference's result array is `result` of its arguments, when they are finite. -/
theorem val_eq (hX : ∀ i, ∃ r : ℝ, X i = (r : EReal)) (hW : ∀ i, ∃ r : ℝ, W i = (r : EReal)) :
    val_main_v25 (F := Ideal) X W = result X W := by
  funext i
  obtain ⟨b, l, d, rfl⟩ : ∃ (b : Fin 32768) (l : Fin 2) (d : Fin 1024), i = ix3 b l d := ⟨i 0, i 1, i 2, eq_ix3 i⟩
  rw [v25_apply X W b l d (score_real_of_finite X W b hX hW), result_ix3]

end Cert.ReferenceIdeal.RefValue

end
-- ==== Proof.Finite.lean ====
/-
  What the precondition says. It is the conjunction, over both argument arrays, of `|x| < +∞` at every entry; on the
  extended reals an entry whose absolute value is below +∞ is neither infinity, so it is a real number.
-/
import proofs.«168276_j72713796321750_2_alg».proof.Pre_finite_inputs
import Idealize.ShloMosaic.PureOps.Ideal.Laws
import Idealize.ShloMosaic.Lib.ReduceAll
import Idealize.ShloMosaic.Lib.ValueIdx

namespace Cert.Pre_finite_inputs.Finite

open Idealize.ShloMosaic Cert.Pre_finite_inputs

variable [Facts]
open Facts

instance : Subsingleton S_.Idx := ⟨fun _ _ => funext fun d => d.elim0⟩

/-- An extended real whose absolute value is below +∞ is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of both arguments is a real number. -/
theorem finite_of_pre (X : FVec Ideal S32768x2x1024 .f32) (W : FVec Ideal S1024x1 .f32)
    (h : fn (F := Ideal) X W = fun _ => 1#1) :
    (∀ i, ∃ r : ℝ, X i = (r : EReal)) ∧ (∀ i, ∃ r : ℝ, W i = (r : EReal)) := by
  have h0 := congrFun h ValueIdx.ix0
  dsimp only [fn] at h0
  have h1 : IntOp.andi _ _ = 1#1 := h0
  obtain ⟨hX, hW⟩ := IntOp.andi_eq_one.mp h1
  refine ⟨fun i => ?_, fun i => ?_⟩
  · exact real_of_abs_lt_top _ (Host.reduce_andi_all _ _ _ _ _ hX i)
  · exact real_of_abs_lt_top _ (Host.reduce_andi_all _ _ _ _ _ hW i)

end Cert.Pre_finite_inputs.Finite
-- ==== Proof.lean ====
/-
  The certificate. Both idealized programs compute, batch row by batch row, a two-position self-attention with a
  one-dimensional query space: shift the row's two positions by ±2⁻⁵, score each against the scaled weights, and mix
  the two shifted positions with the softmax of the products of the scores. The kernel spells the two-element softmax
  as a logistic function of the logits' difference (and its complement), the reference as exponentials of the logits
  less their maximum over their sum; on real logits these are the same number, and under the precondition (every
  input finite) the logits are real. So both result arrays are `Cert.Attn.result` of the arguments.
  The three frames: the two kernel programs' are the generated frame runs; the reference's is its run with the result
  dropped. The idealization rewrote nothing, so `preserves` is trivial.
-/
import proofs.«168276_j72713796321750_2_alg».proof.Defs
import proofs.«168276_j72713796321750_2_alg».proof.Proof.Gen.Kernel
import proofs.«168276_j72713796321750_2_alg».proof.Proof.Gen.Kernel.Skeleton
import proofs.«168276_j72713796321750_2_alg».proof.Proof.Gen.Kernel.Launch
import proofs.«168276_j72713796321750_2_alg».proof.Proof.Gen.Kernel.Points
import proofs.«168276_j72713796321750_2_alg».proof.Proof.Gen.Kernel.Frame
import proofs.«168276_j72713796321750_2_alg».proof.Proof.Gen.KernelIdeal
import proofs.«168276_j72713796321750_2_alg».proof.Proof.Gen.KernelIdeal.Skeleton
import proofs.«168276_j72713796321750_2_alg».proof.Proof.Gen.KernelIdeal.Launch
import proofs.«168276_j72713796321750_2_alg».proof.Proof.Gen.KernelIdeal.Points
import proofs.«168276_j72713796321750_2_alg».proof.Proof.Gen.KernelIdeal.Frame
import proofs.«168276_j72713796321750_2_alg».proof.Proof.Gen.ReferenceIdeal
import proofs.«168276_j72713796321750_2_alg».proof.Proof.Gen.ReferenceIdeal.Run
import proofs.«168276_j72713796321750_2_alg».proof.Proof.Gen.ReferenceIdeal.Read
import proofs.«168276_j72713796321750_2_alg».proof.Proof.Gen.Pre_finite_inputs
import proofs.«168276_j72713796321750_2_alg».proof.Proof.KernelValue
import proofs.«168276_j72713796321750_2_alg».proof.Proof.RefValue
import proofs.«168276_j72713796321750_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with `result` of the kernel's arguments: the kernel
    by its blocks tiling the output, the reference by its stages read at an entry and the softmax–logistic identity on
    the real scores the finite arguments give. -/
theorem algebraic : Cert.algebraic_KernelIdeal_ReferenceIdeal := by
  intro m ρ m' ρ' hpre hagree
  refine ⟨fun c => Cert.Attn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW⟩ := Cert.Pre_finite_inputs.Finite.finite_of_pre _ _ (hpre c)
  rw [Cert.ReferenceIdeal.Read.val_main_v25_eq, (hagree c).1, (hagree c).2]
  exact Cert.ReferenceIdeal.RefValue.val_eq _ _ hX hW

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
